-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x5 : Shape := ⟨2, ![8192, 5]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S8192x5 : S_.BroadcastsInDim S8192x5 (![] : Fin 0 → Fin S8192x5.rank)
  reducesTo_S8192x5_S_d0_1 : S8192x5.ReducesTo [0, 1] S_

variable [Facts]

def fn {F : FTy → Type} [FloatOps F] (main_arg0 : FVec F S8192x16 .f32) (main_arg1 : FVec F S8192x5 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S8192x5 .f32 := Host.absf main_arg1
  let main_cst_0 : FVec F S_ .f32 := constant S_ .f32 0x7F800000#32
  let main_v5 : FVec F S8192x5 .f32 := broadcastInDim S8192x5 ![] bcast_S_S8192x5 main_cst_0
  let main_v6 : IVec S8192x5 1 := cmpf .olt main_v4 main_v5
  let main_c_1 : IVec S_ 1 := constantI S_ 1 1#1
  let main_v7 : IVec S_ 1 := (fun x v => Host.reduce IntOp.andi x v reducesTo_S8192x5_S_d0_1 h_S_) main_v6 main_c_1
  let main_v8 : IVec S_ 1 := andi main_v3 main_v7
  main_v8
-- ==== Kernel.lean ====
abbrev S8192x16 : Shape := ⟨2, ![8192, 16]⟩
abbrev S8192x5 : Shape := ⟨2, ![8192, 5]⟩
abbrev S1024x5 : Shape := ⟨2, ![1024, 5]⟩
abbrev S1024x16 : Shape := ⟨2, ![1024, 16]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 3
  | .vmem => 11
  | .smem => 0
  | _ => 0

abbrev bufTy : (tb : Table) → Fin (tcTables nBuf tb) → BufTy
  | .hbm, ⟨0, _⟩ => ⟨S8192x16, .f32⟩
  | .hbm, ⟨1, _⟩ => ⟨S8192x5, .f32⟩
  | .hbm, ⟨2, _⟩ => ⟨S8192x16, .f32⟩
  | .local _ .vmem, ⟨0, _⟩ => ⟨S1024x5, .f32⟩
  | .local _ .vmem, ⟨1, _⟩ => ⟨S1024x5, .f32⟩
  | .local _ .vmem, ⟨2, _⟩ => ⟨S1024x5, .f32⟩
  | .local _ .vmem, ⟨3, _⟩ => ⟨S1024x5, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x16, .f32⟩
  | .local _ .vmem, ⟨10, _⟩ => ⟨S1024x16, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_16 : BitVec 32 := 0#32
  let v35 : BitVec 1 := Scalar.cmpi .ne v34 c0_i32_16
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x5_S1024x5_0_0 : ∀ a, (![0, 0] : Fin 2 → Nat) a + S1024x5.size a ≤ S1024x5.size a
  h_S1024x5 : 0 < S1024x5.numel
  reduces_S1024x5_S1024 : S1024x5.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  bitsLt_bf16_f32 : FTy.bits .bf16 < FTy.bits .f32
  dot_S1024x5_S1024x5_S1024x1024_1_1_0_0_n_n_wf : DotDims.WF S1024x5 S1024x5 S1024x1024 [1] [1] [0] [0] [] []
  dot_S1024x1024_S1024x16_S1024x16_1_0_0_1_n_n_wf : DotDims.WF S1024x1024 S1024x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x5.size a ≤ S8192x5.size a
  hwx0_0 : ∀ i : grid0.Coords, EltTy.bits .f32 = 32 ∨ (Rect.block (s := S8192x5) S1024x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S8192x5.size a
  hwx0_1 : ∀ i : grid0.Coords, EltTy.bits .f32 = 32 ∨ (Rect.block (s := S8192x5) S1024x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S8192x16.size a
  hwx0_4 : ∀ i : grid0.Coords, EltTy.bits .f32 = 32 ∨ (Rect.block (s := S8192x16) S1024x16.size (cc0_transform_4 i) (hinb0_4 i)).WholeWords (EltTy.packing .f32)

variable [Facts₀]

def dot_S1024x5_S1024x5_S1024x1024_1_1_0_0_n_n : DotDims S1024x5 S1024x5 S1024x1024 where
  lhsContracting := [1]
  rhsContracting := [1]
  lhsNonContracting := [0]
  rhsNonContracting := [0]
  lhsBatch := []
  rhsBatch := []
  wf := dot_S1024x5_S1024x5_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf

abbrev win0_0 : Pipeline.Window sig grid0 :=
  Pipeline.Window.ofSpec (Memref.whole main_arg1) S1024x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x16 : Shape := ⟨2, ![8192, 16]⟩
abbrev S8192x5 : Shape := ⟨2, ![8192, 5]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S5x8192 : Shape := ⟨2, ![5, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S8192x5, .f32⟩
  | .hbm, ⟨2, _⟩ => ⟨S8192x5, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S5x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x16, .f32⟩
  | .hbm, ⟨24, _⟩ => ⟨S8192x16, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S8192x5_S8192_d1 : S8192x5.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x5_S5x8192_1_0 : S8192x5.Transposes [1, 0] S5x8192
  bcast_S_S8192x8192 : S_.BroadcastsInDim S8192x8192 (![] : Fin 0 → Fin S8192x8192.rank)
  dot_S8192x5_S5x8192_S8192x8192_1_0_0_1_n_n_wf : DotDims.WF S8192x5 S5x8192 S8192x8192 [1] [0] [0] [1] [] []
  dot_S8192x8192_S8192x16_S8192x16_1_0_0_1_n_n_wf : DotDims.WF S8192x8192 S8192x16 S8192x16 [1] [0] [0] [1] [] []

variable [Facts₀]

def dot_S8192x5_S5x8192_S8192x8192_1_0_0_1_n_n : DotDims S8192x5 S5x8192 S8192x8192 where
  lhsContracting := [1]
  rhsContracting := [0]
  lhsNonContracting := [0]
  rhsNonContracting := [1]
  lhsBatch := []
  rhsBatch := []
  wf := dot_S8192x5_S5x8192_S8192x8192_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.BitsRun.Cases.lean ====
/-
  The grid of the tiled filter has 64 points, (q, k) with q the block of output rows and k the block of
  summed rows; point number t has k = t mod 8. The body branches twice on k: at k = 0 it clears the running
  sum kept in scratch, at k = 7 it writes the finished block (the running sum less the rows' own entries).
  This module states those two conditions in closed form over the point number, says where the output
  window is idle, and names the staging buffers the body is called with.
-/
import proofs.«139288_j19018115186783_1_alg».proof.Proof.Gen.Kernel.Launch
import proofs.«139288_j19018115186783_1_alg».proof.Proof.Gen.Kernel.Skeleton
import proofs.«139288_j19018115186783_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents of core `c`'s buffers when the one region is entered: the launch contents. -/
abbrev V (c : Dev nD) (b : Ref sig .tc) : Buf (Elt F) ((c : Thread nD τ).loc b) := m ((c : Thread nD τ).loc b)

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions -/

/-- "k = 0", as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points whose number is 0 mod 8. -/
theorem isFirst_iff : ∀ t : Fin cfg0.N, isFirst (grid0.coords t) ↔ t.val % 8 = 0 :=
  (by decide +kernel : ∀ t : Fin grid0.N, isFirst (grid0.coords t) ↔ t.val % 8 = 0)

/-- "k = 7", as the body computes it. -/
abbrev isLast (i : grid0.Coords) : Prop := k0_cond2 i = 1#1
/-- It holds at the points whose number is 7 mod 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from k = 7 the body stores nothing into the output window, -/
theorem idle4 : ∀ t : Fin cfg0.N, ¬ t.val % 8 = 7 → cfg0.idle 4 (grid0.coords t) = true := by decide +kernel
/-- and the pipeline does not write its block back there; -/
theorem noFlush4 : ∀ t : Fin cfg0.N, ¬ t.val % 8 = 7 → (cfg0.win 4).flush t = false := by decide +kernel
/-- at k = 7 it is live. -/
theorem live4 : ∀ t : Fin cfg0.N, t.val % 8 = 7 → cfg0.idle 4 (grid0.coords t) = false := by decide +kernel

/-! ## The memrefs the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x16 .f32 := win0_4.stage (cfg0.slots t 4)
abbrev hs4 (t : Fin cfg0.N) : (ms4 t).IsWhole := hstage0_4 ((cfg0.slots t 4).cast nbuf0_4)
/-- The scratch that carries the running sum from one point to the next. -/
abbrev accM : Memref sig .tc .vmem S1024x16 .f32 := Memref.whole cc0_scratch0

/-- The zero offsets of a whole-block access, as the constant function. -/
theorem zero_off : (![0, 0] : Fin 2 → Nat) = fun _ => 0 := funext fun a => by fin_cases a <;> rfl

/-- A whole-block store at zero offsets covers every index of the block. -/
theorem covers_whole (w : S1024x16.Idx → Elt F .f32) (L : List (View.Piece (Elt F) S1024x16 .f32)) (y : S1024x16.Idx) :
    ∃ pc ∈ ((⟨Rect.unit (s := S1024x16) ![0, 0] S1024x16.size inb_S1024x16_S1024x16_0_0, w⟩ : View.Piece (Elt F) S1024x16 .f32) :: L), y ∈ pc.1.set :=
  ⟨_, List.mem_cons_self, View.mem_set_unit_zero zero_off inb_S1024x16_S1024x16_0_0 y⟩

end Cert.Kernel.Tiled

end
-- ==== Proof.BitsRun.RunFirst.lean ====
/-
  The body at a point with k = 0: it first clears the running sum in scratch (whatever the scratch held),
  then proceeds as at every point, so the scratch ends at this tile's contribution added to zero; the
  output window's buffer is not touched.
-/
import proofs.«139288_j19018115186783_1_alg».proof.Proof.BitsRun.Cases

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where the clearing branch is taken and the writing branch is not. -/
theorem runFirst (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : isFirst i) (hc1 : ¬isLast i)
    (x0 x1 : Vec F S1024x5 .f32) (x2 x3 x4 : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (k0_pay3 x0 x1 x2 k0_pay2)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := h2.eq_unread hf0; obtain rfl := h3.eq_unread hf1; obtain rfl := h4.eq_unread hf2
  obtain rfl := h5.eq_unread hf3; obtain rfl := h6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_run_names
  rw [View.read_writes_eq_canon _ _ _ (covers_whole _ _), View.canon_cons_unit_zero zero_off, View.readCov_unit_zero _ zero_off]
  simp only [View.readAt_eq_ld, hf0, hf1, hf2, View.ld_unit_zero (S := S1024x5) zero_off, View.ld_unit_zero (S := S1024x16) zero_off]

end Cert.Kernel.Tiled

end
-- ==== Proof.BitsRun.RunMid.lean ====
/-
  The body at a point with 0 < k < 7: it neither clears the running sum nor writes the output block. It
  loads the two blocks of reference rows and the block of summed rows, adds their weighted product to the
  running sum it finds in scratch, and stores the sum back; the output window's buffer is not touched.
-/
import proofs.«139288_j19018115186783_1_alg».proof.Proof.BitsRun.Cases

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where neither branch is taken: every input buffer and the output buffer come
    back as they were, the scratch holds the old running sum plus this tile's contribution. -/
theorem runMid (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : ¬isFirst i) (hc1 : ¬isLast i)
    (x0 x1 : Vec F S1024x5 .f32) (x2 x3 x4 xs : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (k0_pay3 x0 x1 x2 xs)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (covers_whole _ _), View.canon_unit_zero zero_off]
  simp only [View.readAt_eq_ld, hf0, hf1, hf2, hfs, View.ld_unit_zero (S := S1024x5) zero_off, View.ld_unit_zero (S := S1024x16) zero_off]

end Cert.Kernel.Tiled

end
-- ==== Proof.BitsRun.RunLast.lean ====
/-
  The body at a point with k = 7: it adds this tile's contribution to the running sum as at every point
  and then writes the output block, the finished sum less the block of the rows' own values.
-/
import proofs.«139288_j19018115186783_1_alg».proof.Proof.BitsRun.Cases

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where the writing branch is taken and the clearing branch is not: the output
    window's buffer, whatever it held, ends at the finished block. -/
theorem runLast (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : ¬isFirst i) (hc1 : isLast i)
    (x0 x1 : Vec F S1024x5 .f32) (x2 x3 xs : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay1 (k0_pay3 x0 x1 x2 xs) x3)
            ∗ owns (c : Thread nD τ) a7 fullShare (k0_pay3 x0 x1 x2 xs)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := h2.eq_unread hf0; obtain rfl := h3.eq_unread hf1; obtain rfl := h4.eq_unread hf2
  obtain rfl := h5.eq_unread hf3; obtain rfl := h7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [View.read_writes_eq_canon _ _ _ (covers_whole _ _), View.canon_unit_zero zero_off, View.readCov_unit_zero _ zero_off]
    simp only [View.readAt_eq_ld, hf0, hf1, hf2, hf3, hfs, View.ld_unit_zero (S := S1024x5) zero_off, View.ld_unit_zero (S := S1024x16) zero_off]
  iexists _; isplitr
  swap; · iexact HS
  ipureintro
  sl_unfold_run_names
  rw [View.read_writes_eq_canon _ _ _ (covers_whole _ _), View.canon_unit_zero zero_off]
  simp only [View.readAt_eq_ld, hf0, hf1, hf2, hfs, View.ld_unit_zero (S := S1024x5) zero_off, View.ld_unit_zero (S := S1024x16) zero_off]

end Cert.Kernel.Tiled

end
-- ==== Proof.BitsRun.Accum.lean ====
/-
  The proof data of the one pipeline. The scratch carries a running sum: after the body at point t it holds
  the tile sums of the current block of output rows for the summed blocks k' <= k (k = t mod 8), the sum
  restarted from the zero block whenever k = 0. `accAt` states this by recursion on the point number, over
  the generated name of the body's arithmetic. The output window's buffer is written only at k = 7, with the
  running sum less the block of the rows' own values; elsewhere it is idle and handed back untouched.
  Each of the two argument arrays is read through two windows, so each window holds half of its array's
  full share.
-/
import proofs.«139288_j19018115186783_1_alg».proof.Proof.BitsRun.RunFirst
import proofs.«139288_j19018115186783_1_alg».proof.Proof.BitsRun.RunMid
import proofs.«139288_j19018115186783_1_alg».proof.Proof.BitsRun.RunLast

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The running sum, point by point -/

/-- One point's update of the running sum `s`: the body's arithmetic at the point's three input blocks. -/
def step (c : Dev nD) (t : Fin cfg0.N) (s : Vec F S1024x16 .f32) : Vec F S1024x16 .f32 :=
  k0_pay3 (iblk m c 0 t) (iblk m c 1 t) (iblk m c 2 t) s

/-- What the scratch holds after the body at point `n`: the update of the zero block where k = 0, of what
    the point before left elsewhere. -/
def accAt (c : Dev nD) : (n : ℕ) → n < cfg0.N → Vec F S1024x16 .f32
  | 0, hn => step m c ⟨0, hn⟩ k0_pay2
  | n + 1, hn => step m c ⟨n + 1, hn⟩ (if (n + 1) % 8 = 0 then k0_pay2 else accAt c n (Nat.lt_of_succ_lt hn))

theorem accAt_first (c : Dev nD) (t : Fin cfg0.N) (h : t.val % 8 = 0) :
    accAt m c t.val t.isLt = step m c t k0_pay2 := by
  obtain ⟨n, hn⟩ := t
  cases n with
  | zero => rfl
  | succ n =>
    show step m c _ (if (n + 1) % 8 = 0 then _ else _) = _
    rw [if_pos h]

theorem accAt_next (c : Dev nD) (t : Fin cfg0.N) (h : ¬ t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n =>
    show step m c _ (if (n + 1) % 8 = 0 then _ else _) = _
    rw [if_neg h]; rfl

/-! ## The invariant: the scratch at the running sum -/

/-- Before the first point the scratch holds anything; before point `n + 1` what point `n` left. -/
def PhiAcc (c : Dev nD) : (n : ℕ) → n ≤ cfg0.N → sProp 𝕄
  | 0, _ => iprop(∃ d, owns (c : Thread nD τ) accM fullShare d)
  | n + 1, hn => owns (c : Thread nD τ) accM fullShare (accAt m c n hn)

theorem PhiAcc_zero (c : Dev nD) (n : ℕ) (h : n ≤ cfg0.N) (hz : n = 0) :
    PhiAcc m c n h = iprop(∃ d, owns (c : Thread nD τ) accM fullShare d) := by
  subst hz; rfl

theorem PhiAcc_succ (c : Dev nD) (n : ℕ) (hn : n < cfg0.N) :
    PhiAcc m c (n + 1) hn = owns (c : Thread nD τ) accM fullShare (accAt m c n hn) := rfl

theorem PhiAcc_pos (c : Dev nD) (n : ℕ) (h : n ≤ cfg0.N) (hz : n ≠ 0) :
    PhiAcc m c n h = owns (c : Thread nD τ) accM fullShare (accAt m c (n - 1) (by omega)) := by
  cases n with
  | zero => exact absurd rfl hz
  | succ n => rfl

/-! ## The proof data -/

/-- The arrays as the region finds them; each input window's buffer left at its block; the output window's at
    the running sum less the rows' own values; the invariant the scratch at the running sum; nothing owed; the
    two windows on one array each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (accAt m c t.val t.isLt) (iblk m c 3 t)
  Φ t := PhiAcc m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAcc m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = k0_pay1 (accAt m c t.val t.isLt) (iblk m c 3 t) := by dsimp only [dats]

/-- Input window 0's current buffer holds its block at every point, fetched there or not (an unfetched point has
    the block index of the point before). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- and the body hands it back at its block. -/
theorem leaves0 (c : Dev nD) (t : Fin cfg0.N) :
    (dats m 0 c).leavesExact 0 t = owns (c : Thread nD τ) (ms0 t) fullShare (iblk m c 0 t) := by
  unfold Dat.leavesExact; rw [live0 t, after0]

/-- Input window 1's current buffer holds its block at every point, fetched there or not (an unfetched point has
    the block index of the point before). -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- and the body hands it back at its block. -/
theorem leaves1 (c : Dev nD) (t : Fin cfg0.N) :
    (dats m 0 c).leavesExact 1 t = owns (c : Thread nD τ) (ms1 t) fullShare (iblk m c 1 t) := by
  unfold Dat.leavesExact; rw [live1 t, after1]

/-- Input window 2's current buffer holds its block at every point, fetched there or not (an unfetched point has
    the block index of the point before). -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- and the body hands it back at its block. -/
theorem leaves2 (c : Dev nD) (t : Fin cfg0.N) :
    (dats m 0 c).leavesExact 2 t = owns (c : Thread nD τ) (ms2 t) fullShare (iblk m c 2 t) := by
  unfold Dat.leavesExact; rw [live2 t, after2]

/-- Input window 3's current buffer holds its block at every point, fetched there or not (an unfetched point has
    the block index of the point before). -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- and the body hands it back at its block. -/
theorem leaves3 (c : Dev nD) (t : Fin cfg0.N) :
    (dats m 0 c).leavesExact 3 t = owns (c : Thread nD τ) (ms3 t) fullShare (iblk m c 3 t) := by
  unfold Dat.leavesExact; rw [live3 t, after3]

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the point's number mod 8 says which of the three runs applies; the invariant hands
    the run the scratch at what the point before left (at anything where the sum restarts) and takes it back
    at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiAcc m c (t.val + 1) t.isLt from rfl, PhiAcc_succ]
  rw [leaves0, leaves1, leaves2, leaves3]
  have hN : t.val < 64 := lt_of_lt_of_eq t.isLt (show cfg0.N = 64 from N_0)
  by_cases h0 : t.val % 8 = 0
  · have h1 : ¬ t.val % 8 = 7 := by omega
    rw [Dat.leavesExact_idle (dats m 0 c) 4 t (idle4 t h1) (noFlush4 t h1), accAt_first m c t h0]
    unfold step
    by_cases hz : t.val = 0
    · rw [Phi_castSucc m c t, PhiAcc_zero m c _ _ hz]
      iintro ⟨HS, Ho, ⟨%d0, H0⟩, ⟨%d1, H1⟩, ⟨%d2, H2⟩, ⟨%d3, H3⟩, ⟨%d4, H4⟩⟩
      iapply (runFirst c (grid0.coords t) (ms0 t) (hs0 t) (ms1 t) (hs1 t) (ms2 t) (hs2 t) (ms3 t) (hs3 t) (ms4 t) (hs4 t) accM (Memref.isWhole_whole _)
        ((isFirst_iff t).mpr h0) (fun h => h1 ((isLast_iff t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [Phi_castSucc m c t, PhiAcc_pos m c _ _ hz]
      iintro ⟨HS, Ho, ⟨%d0, H0⟩, ⟨%d1, H1⟩, ⟨%d2, H2⟩, ⟨%d3, H3⟩, ⟨%d4, H4⟩⟩
      iapply (runFirst c (grid0.coords t) (ms0 t) (hs0 t) (ms1 t) (hs1 t) (ms2 t) (hs2 t) (ms3 t) (hs3 t) (ms4 t) (hs4 t) accM (Memref.isWhole_whole _)
        ((isFirst_iff t).mpr h0) (fun h => h1 ((isLast_iff t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi_castSucc m c t, PhiAcc_pos m c _ _ hz, accAt_next m c t h0]
    unfold step
    by_cases h1 : t.val % 8 = 7
    · rw [show (dats m 0 c).leavesExact 4 t = owns (c : Thread nD τ) (ms4 t) fullShare ((dats m 0 c).after 4 t) from by
        unfold Dat.leavesExact; rw [live4 t h1], after4, accAt_next m c t h0]
      unfold step
      iintro ⟨HS, Ho, ⟨%d0, H0⟩, ⟨%d1, H1⟩, ⟨%d2, H2⟩, ⟨%d3, H3⟩, ⟨%d4, H4⟩⟩
      iapply (runLast c (grid0.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h1) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      iintro ⟨HS, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) accM (Memref.isWhole_whole _)
        (fun h => h0 ((isFirst_iff t).mp h)) (fun h => h1 ((isLast_iff t).mp h)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tiled

end
-- ==== Proof.BitsRun.Launch.lean ====
/-
  The launch. The region is entered holding each argument array whole; the array of features is read through
  two windows (the block of output rows and the block of summed rows), and so is the array of values, so each
  array's full share is halved between its two windows, and the halves are joined again at the end. The scratch,
  the only scoped buffer that is no staging buffer, enters the invariant at arbitrary contents and leaves it
  with its contents forgotten. The run ends with every window's array at what the write-backs made of it; an
  input window's array is never written, which is the frame.
-/
import proofs.«139288_j19018115186783_1_alg».proof.Proof.BitsRun.Accum

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the five windows, each whole at the full share, make the windows' arrays at
    their shares: the two argument arrays halved. -/
theorem arrays_in (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg1, main_arg0, main_v0} from by decide]
  rw [bigSep_insert (by decide), bigSep_insert (by decide), bigSep_singleton]
  rw [(arr_whole0 0).set_eq_univ, (arr_whole0 2).set_eq_univ, (arr_whole0 4).set_eq_univ]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl]
  show iprop(_ ∗ _ ∗ _) ⊢ _
  iintro ⟨H1, H0, Hv⟩
  ihave H1' := (pointsTo_share (PosShare.mem_left_op_right fullShare)).1 $$ H1
  icases H1' with ⟨H1l, H1r⟩
  ihave H0' := (pointsTo_share (PosShare.mem_left_op_right fullShare)).1 $$ H0
  icases H0' with ⟨H0l, H0r⟩
  isplitl [H1l]; · iexact H1l
  isplitl [H1r]; · iexact H1r
  isplitl [H0l]; · iexact H0l
  isplitl [H0r]; · iexact H0r
  iexact Hv

/-- No unscoped buffer bypasses the region: every one is a window's array. -/
theorem rest_in (c : Dev nD) :
    (Pipeline.unscopedRest spec0 c (V m c) : sProp 𝕄) ⊢ iprop((BI.emp : sProp 𝕄) ∗ (BI.emp : sProp 𝕄)) := by
  rw [unscopedRest0_eq]
  iintro -
  isplitl [] <;> iempintro

/-- The scratch, at whatever it holds, is the invariant before the first point. -/
theorem acc_in (c : Dev nD) :
    iprop((BI.emp : sProp 𝕄) ∗ Pipeline.scopedRest spec0 c) ⊢ (dats m 0 c).Φ 0 := by
  rw [show (dats m 0 c).Φ 0 = PhiAcc m c 0 (Nat.zero_le _) from rfl, PhiAcc_zero m c 0 _ rfl, scopedRest0_eq]
  simp only [accM, owns_whole]
  iintro ⟨-, H⟩; iexact H

/-- After the last point the invariant gives the scratch back, its contents forgotten. -/
theorem acc_out (c : Dev nD) :
    (dats m 0 c).Φ (Fin.last cfg0.N) ⊢ iprop((BI.emp : sProp 𝕄) ∗ Pipeline.scopedRest spec0 c) := by
  rw [show (dats m 0 c).Φ (Fin.last cfg0.N) = PhiAcc m c cfg0.N (Nat.le_refl _) from rfl,
    PhiAcc_pos m c _ _ (by have : cfg0.N = 64 := N_0; omega), scopedRest0_eq]
  simp only [accM, owns_whole]
  iintro H
  isplitr; · iempintro
  iexists _; iexact H

/-- At the compiled mesh, from any memory with zero counters: every weakly fair execution of @main terminates,
    nothing faulting, with every window's array at what the write-backs of all 64 points made of it. -/
theorem run_main : θ_run defs (onTc (τ := τ) (main (F := F))) ⟨m, fun _ => 0, ρ⟩ (fun r => ∀ c : Dev nD,
      ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := Pipeline.hmain_region cfgs 0 defs₀ Variants.none m main (fun _ => rfl))
    (hsplit := arrays_in m)
    (X := fun _ => (BI.emp : sProp 𝕄)) (Y := fun _ => (BI.emp : sProp 𝕄)) (Z := fun _ => (BI.emp : sProp 𝕄))
    (hX := rest_in m) (hin := acc_in m) (hout := acc_out m)
    (QY := fun _ _ => True)
    (hY := fun c s' => by
      iintro ⟨-, -, HSI⟩; imodintro
      isplitr; · ipureintro; trivial
      iexact HSI)
    (hQ := fun s h c w => (h c).1 w)

/-- THE FRAME: every weakly fair execution terminates, nothing faulting, and the two argument arrays end as
    they were: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

/-- The same run, the result array named: it ends at what the eight write-backs of window 4 made of it. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c) 4,
     ((h c) 2).trans (((dats m 0 c).arrAt_in 2 rfl _).trans (A_eq m c 2)),
     ((h c) 0).trans (((dats m 0 c).arrAt_in 0 rfl _).trans (A_eq m c 0))⟩) (run_main m ρ)

end Cert.Kernel.Tiled

end
-- ==== Proof.IdealRun.Cases.lean ====
/-
  The grid of the tiled filter has 64 points, (q, k) with q the block of output rows and k the block of
  summed rows; point number t has k = t mod 8. The body branches twice on k: at k = 0 it clears the running
  sum kept in scratch, at k = 7 it writes the finished block (the running sum less the rows' own entries).
  This module states those two conditions in closed form over the point number, says where the output
  window is idle, and names the staging buffers the body is called with.
-/
import proofs.«139288_j19018115186783_1_alg».proof.Proof.Gen.KernelIdeal.Launch
import proofs.«139288_j19018115186783_1_alg».proof.Proof.Gen.KernelIdeal.Skeleton
import proofs.«139288_j19018115186783_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents of core `c`'s buffers when the one region is entered: the launch contents. -/
abbrev V (c : Dev nD) (b : Ref sig .tc) : Buf (Elt F) ((c : Thread nD τ).loc b) := m ((c : Thread nD τ).loc b)

/-- The block of window `w` at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions -/

/-- "k = 0", as the body computes it from the grid coordinates. -/
abbrev isFirst (i : grid0.Coords) : Prop :=
  (Scalar.cmpi .ne (Scalar.extui (Scalar.cmpi .eq (BitVec.ofNat 32 (i 1).val) 0#32)) 0#32) = 1#1
/-- It holds at the points whose number is 0 mod 8. -/
theorem isFirst_iff : ∀ t : Fin cfg0.N, isFirst (grid0.coords t) ↔ t.val % 8 = 0 :=
  (by decide +kernel : ∀ t : Fin grid0.N, isFirst (grid0.coords t) ↔ t.val % 8 = 0)

/-- "k = 7", as the body computes it. -/
abbrev isLast (i : grid0.Coords) : Prop := k0_cond2 i = 1#1
/-- It holds at the points whose number is 7 mod 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from k = 7 the body stores nothing into the output window, -/
theorem idle4 : ∀ t : Fin cfg0.N, ¬ t.val % 8 = 7 → cfg0.idle 4 (grid0.coords t) = true := by decide +kernel
/-- and the pipeline does not write its block back there; -/
theorem noFlush4 : ∀ t : Fin cfg0.N, ¬ t.val % 8 = 7 → (cfg0.win 4).flush t = false := by decide +kernel
/-- at k = 7 it is live. -/
theorem live4 : ∀ t : Fin cfg0.N, t.val % 8 = 7 → cfg0.idle 4 (grid0.coords t) = false := by decide +kernel

/-! ## The memrefs the body is called with -/

abbrev ms0 (t : Fin cfg0.N) : Memref sig .tc .vmem S1024x5 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x16 .f32 := win0_4.stage (cfg0.slots t 4)
abbrev hs4 (t : Fin cfg0.N) : (ms4 t).IsWhole := hstage0_4 ((cfg0.slots t 4).cast nbuf0_4)
/-- The scratch that carries the running sum from one point to the next. -/
abbrev accM : Memref sig .tc .vmem S1024x16 .f32 := Memref.whole cc0_scratch0

/-- The zero offsets of a whole-block access, as the constant function. -/
theorem zero_off : (![0, 0] : Fin 2 → Nat) = fun _ => 0 := funext fun a => by fin_cases a <;> rfl

/-- A whole-block store at zero offsets covers every index of the block. -/
theorem covers_whole (w : S1024x16.Idx → Elt F .f32) (L : List (View.Piece (Elt F) S1024x16 .f32)) (y : S1024x16.Idx) :
    ∃ pc ∈ ((⟨Rect.unit (s := S1024x16) ![0, 0] S1024x16.size inb_S1024x16_S1024x16_0_0, w⟩ : View.Piece (Elt F) S1024x16 .f32) :: L), y ∈ pc.1.set :=
  ⟨_, List.mem_cons_self, View.mem_set_unit_zero zero_off inb_S1024x16_S1024x16_0_0 y⟩

end Cert.KernelIdeal.Tiled

end
-- ==== Proof.IdealRun.RunFirst.lean ====
/-
  The body at a point with k = 0: it first clears the running sum in scratch (whatever the scratch held),
  then proceeds as at every point, so the scratch ends at this tile's contribution added to zero; the
  output window's buffer is not touched.
-/
import proofs.«139288_j19018115186783_1_alg».proof.Proof.IdealRun.Cases

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where the clearing branch is taken and the writing branch is not. -/
theorem runFirst (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : isFirst i) (hc1 : ¬isLast i)
    (x0 x1 : Vec F S1024x5 .f32) (x2 x3 x4 : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (k0_pay3 x0 x1 x2 k0_pay2)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := h2.eq_unread hf0; obtain rfl := h3.eq_unread hf1; obtain rfl := h4.eq_unread hf2
  obtain rfl := h5.eq_unread hf3; obtain rfl := h6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  sl_unfold_run_names
  rw [View.read_writes_eq_canon _ _ _ (covers_whole _ _), View.canon_cons_unit_zero zero_off, View.readCov_unit_zero _ zero_off]
  simp only [View.readAt_eq_ld, hf0, hf1, hf2, View.ld_unit_zero (S := S1024x5) zero_off, View.ld_unit_zero (S := S1024x16) zero_off]

end Cert.KernelIdeal.Tiled

end
-- ==== Proof.IdealRun.RunMid.lean ====
/-
  The body at a point with 0 < k < 7: it neither clears the running sum nor writes the output block. It
  loads the two blocks of reference rows and the block of summed rows, adds their weighted product to the
  running sum it finds in scratch, and stores the sum back; the output window's buffer is not touched.
-/
import proofs.«139288_j19018115186783_1_alg».proof.Proof.IdealRun.Cases

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where neither branch is taken: every input buffer and the output buffer come
    back as they were, the scratch holds the old running sum plus this tile's contribution. -/
theorem runMid (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : ¬isFirst i) (hc1 : ¬isLast i)
    (x0 x1 : Vec F S1024x5 .f32) (x2 x3 x4 xs : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4 ∗ owns (c : Thread nD τ) a7 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare (k0_pay3 x0 x1 x2 xs)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact HS
  ipureintro
  rw [View.read_writes_eq_canon _ _ _ (covers_whole _ _), View.canon_unit_zero zero_off]
  simp only [View.readAt_eq_ld, hf0, hf1, hf2, hfs, View.ld_unit_zero (S := S1024x5) zero_off, View.ld_unit_zero (S := S1024x16) zero_off]

end Cert.KernelIdeal.Tiled

end
-- ==== Proof.IdealRun.RunLast.lean ====
/-
  The body at a point with k = 7: it adds this tile's contribution to the running sum as at every point
  and then writes the output block, the finished sum less the block of the rows' own values.
-/
import proofs.«139288_j19018115186783_1_alg».proof.Proof.IdealRun.Cases

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The triple of the body where the writing branch is taken and the clearing branch is not: the output
    window's buffer, whatever it held, ends at the finished block. -/
theorem runLast (c : Dev nD) (i : grid0.Coords)
    (a2 : Memref sig .tc .vmem S1024x5 .f32) (h2 : a2.IsWhole) (a3 : Memref sig .tc .vmem S1024x5 .f32) (h3 : a3.IsWhole)
    (a4 : Memref sig .tc .vmem S1024x16 .f32) (h4 : a4.IsWhole) (a5 : Memref sig .tc .vmem S1024x16 .f32) (h5 : a5.IsWhole)
    (a6 : Memref sig .tc .vmem S1024x16 .f32) (h6 : a6.IsWhole) (a7 : Memref sig .tc .vmem S1024x16 .f32) (h7 : a7.IsWhole)
    (hc0 : ¬isFirst i) (hc1 : isLast i)
    (x0 x1 : Vec F S1024x5 .f32) (x2 x3 xs : Vec F S1024x16 .f32) (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ d, owns (c : Thread nD τ) a6 fullShare d) ∗ owns (c : Thread nD τ) a7 fullShare xs
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (k0_pay1 (k0_pay3 x0 x1 x2 xs) x3)
            ∗ owns (c : Thread nD τ) a7 fullShare (k0_pay3 x0 x1 x2 xs)) -∗ K ⟨⟩))
      ⊢ wp frame (wpE (defs₀ (F := F)) Variants.none c none) E (cc0__kernel i a2 h2 a3 h3 a4 h4 a5 h5 a6 h6 a7 h7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := h2.eq_unread hf0; obtain rfl := h3.eq_unread hf1; obtain rfl := h4.eq_unread hf2
  obtain rfl := h5.eq_unread hf3; obtain rfl := h7.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    rw [View.read_writes_eq_canon _ _ _ (covers_whole _ _), View.canon_unit_zero zero_off, View.readCov_unit_zero _ zero_off]
    simp only [View.readAt_eq_ld, hf0, hf1, hf2, hf3, hfs, View.ld_unit_zero (S := S1024x5) zero_off, View.ld_unit_zero (S := S1024x16) zero_off]
  iexists _; isplitr
  swap; · iexact HS
  ipureintro
  sl_unfold_run_names
  rw [View.read_writes_eq_canon _ _ _ (covers_whole _ _), View.canon_unit_zero zero_off]
  simp only [View.readAt_eq_ld, hf0, hf1, hf2, hfs, View.ld_unit_zero (S := S1024x5) zero_off, View.ld_unit_zero (S := S1024x16) zero_off]

end Cert.KernelIdeal.Tiled

end
-- ==== Proof.IdealRun.Accum.lean ====
/-
  The proof data of the one pipeline. The scratch carries a running sum: after the body at point t it holds
  the tile sums of the current block of output rows for the summed blocks k' <= k (k = t mod 8), the sum
  restarted from the zero block whenever k = 0. `accAt` states this by recursion on the point number, over
  the generated name of the body's arithmetic. The output window's buffer is written only at k = 7, with the
  running sum less the block of the rows' own values; elsewhere it is idle and handed back untouched.
  Each of the two argument arrays is read through two windows, so each window holds half of its array's
  full share.
-/
import proofs.«139288_j19018115186783_1_alg».proof.Proof.IdealRun.RunFirst
import proofs.«139288_j19018115186783_1_alg».proof.Proof.IdealRun.RunMid
import proofs.«139288_j19018115186783_1_alg».proof.Proof.IdealRun.RunLast

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The running sum, point by point -/

/-- One point's update of the running sum `s`: the body's arithmetic at the point's three input blocks. -/
def step (c : Dev nD) (t : Fin cfg0.N) (s : Vec F S1024x16 .f32) : Vec F S1024x16 .f32 :=
  k0_pay3 (iblk m c 0 t) (iblk m c 1 t) (iblk m c 2 t) s

/-- What the scratch holds after the body at point `n`: the update of the zero block where k = 0, of what
    the point before left elsewhere. -/
def accAt (c : Dev nD) : (n : ℕ) → n < cfg0.N → Vec F S1024x16 .f32
  | 0, hn => step m c ⟨0, hn⟩ k0_pay2
  | n + 1, hn => step m c ⟨n + 1, hn⟩ (if (n + 1) % 8 = 0 then k0_pay2 else accAt c n (Nat.lt_of_succ_lt hn))

theorem accAt_first (c : Dev nD) (t : Fin cfg0.N) (h : t.val % 8 = 0) :
    accAt m c t.val t.isLt = step m c t k0_pay2 := by
  obtain ⟨n, hn⟩ := t
  cases n with
  | zero => rfl
  | succ n =>
    show step m c _ (if (n + 1) % 8 = 0 then _ else _) = _
    rw [if_pos h]

theorem accAt_next (c : Dev nD) (t : Fin cfg0.N) (h : ¬ t.val % 8 = 0) :
    accAt m c t.val t.isLt = step m c t (accAt m c (t.val - 1) (Nat.lt_of_le_of_lt (Nat.sub_le _ _) t.isLt)) := by
  obtain ⟨n, hn⟩ := t
  cases n with
  | zero => exact absurd (Nat.zero_mod _) h
  | succ n =>
    show step m c _ (if (n + 1) % 8 = 0 then _ else _) = _
    rw [if_neg h]; rfl

/-! ## The invariant: the scratch at the running sum -/

/-- Before the first point the scratch holds anything; before point `n + 1` what point `n` left. -/
def PhiAcc (c : Dev nD) : (n : ℕ) → n ≤ cfg0.N → sProp 𝕄
  | 0, _ => iprop(∃ d, owns (c : Thread nD τ) accM fullShare d)
  | n + 1, hn => owns (c : Thread nD τ) accM fullShare (accAt m c n hn)

theorem PhiAcc_zero (c : Dev nD) (n : ℕ) (h : n ≤ cfg0.N) (hz : n = 0) :
    PhiAcc m c n h = iprop(∃ d, owns (c : Thread nD τ) accM fullShare d) := by
  subst hz; rfl

theorem PhiAcc_succ (c : Dev nD) (n : ℕ) (hn : n < cfg0.N) :
    PhiAcc m c (n + 1) hn = owns (c : Thread nD τ) accM fullShare (accAt m c n hn) := rfl

theorem PhiAcc_pos (c : Dev nD) (n : ℕ) (h : n ≤ cfg0.N) (hz : n ≠ 0) :
    PhiAcc m c n h = owns (c : Thread nD τ) accM fullShare (accAt m c (n - 1) (by omega)) := by
  cases n with
  | zero => exact absurd rfl hz
  | succ n => rfl

/-! ## The proof data -/

/-- The arrays as the region finds them; each input window's buffer left at its block; the output window's at
    the running sum less the rows' own values; the invariant the scratch at the running sum; nothing owed; the
    two windows on one array each at half its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay1 (accAt m c t.val t.isLt) (iblk m c 3 t)
  Φ t := PhiAcc m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAcc m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = k0_pay1 (accAt m c t.val t.isLt) (iblk m c 3 t) := by dsimp only [dats]

/-- Input window 0's current buffer holds its block at every point, fetched there or not (an unfetched point has
    the block index of the point before). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
/-- and the body hands it back at its block. -/
theorem leaves0 (c : Dev nD) (t : Fin cfg0.N) :
    (dats m 0 c).leavesExact 0 t = owns (c : Thread nD τ) (ms0 t) fullShare (iblk m c 0 t) := by
  unfold Dat.leavesExact; rw [live0 t, after0]

/-- Input window 1's current buffer holds its block at every point, fetched there or not (an unfetched point has
    the block index of the point before). -/
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
/-- and the body hands it back at its block. -/
theorem leaves1 (c : Dev nD) (t : Fin cfg0.N) :
    (dats m 0 c).leavesExact 1 t = owns (c : Thread nD τ) (ms1 t) fullShare (iblk m c 1 t) := by
  unfold Dat.leavesExact; rw [live1 t, after1]

/-- Input window 2's current buffer holds its block at every point, fetched there or not (an unfetched point has
    the block index of the point before). -/
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
/-- and the body hands it back at its block. -/
theorem leaves2 (c : Dev nD) (t : Fin cfg0.N) :
    (dats m 0 c).leavesExact 2 t = owns (c : Thread nD τ) (ms2 t) fullShare (iblk m c 2 t) := by
  unfold Dat.leavesExact; rw [live2 t, after2]

/-- Input window 3's current buffer holds its block at every point, fetched there or not (an unfetched point has
    the block index of the point before). -/
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)
/-- and the body hands it back at its block. -/
theorem leaves3 (c : Dev nD) (t : Fin cfg0.N) :
    (dats m 0 c).leavesExact 3 t = owns (c : Thread nD τ) (ms3 t) fullShare (iblk m c 3 t) := by
  unfold Dat.leavesExact; rw [live3 t, after3]

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the point's number mod 8 says which of the three runs applies; the invariant hands
    the run the scratch at what the point before left (at anything where the sum restarts) and takes it back
    at this point's running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiAcc m c (t.val + 1) t.isLt from rfl, PhiAcc_succ]
  rw [leaves0, leaves1, leaves2, leaves3]
  have hN : t.val < 64 := lt_of_lt_of_eq t.isLt (show cfg0.N = 64 from N_0)
  by_cases h0 : t.val % 8 = 0
  · have h1 : ¬ t.val % 8 = 7 := by omega
    rw [Dat.leavesExact_idle (dats m 0 c) 4 t (idle4 t h1) (noFlush4 t h1), accAt_first m c t h0]
    unfold step
    by_cases hz : t.val = 0
    · rw [Phi_castSucc m c t, PhiAcc_zero m c _ _ hz]
      iintro ⟨HS, Ho, ⟨%d0, H0⟩, ⟨%d1, H1⟩, ⟨%d2, H2⟩, ⟨%d3, H3⟩, ⟨%d4, H4⟩⟩
      iapply (runFirst c (grid0.coords t) (ms0 t) (hs0 t) (ms1 t) (hs1 t) (ms2 t) (hs2 t) (ms3 t) (hs3 t) (ms4 t) (hs4 t) accM (Memref.isWhole_whole _)
        ((isFirst_iff t).mpr h0) (fun h => h1 ((isLast_iff t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
    · rw [Phi_castSucc m c t, PhiAcc_pos m c _ _ hz]
      iintro ⟨HS, Ho, ⟨%d0, H0⟩, ⟨%d1, H1⟩, ⟨%d2, H2⟩, ⟨%d3, H3⟩, ⟨%d4, H4⟩⟩
      iapply (runFirst c (grid0.coords t) (ms0 t) (hs0 t) (ms1 t) (hs1 t) (ms2 t) (hs2 t) (ms3 t) (hs3 t) (ms4 t) (hs4 t) accM (Memref.isWhole_whole _)
        ((isFirst_iff t).mpr h0) (fun h => h1 ((isLast_iff t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [Phi_castSucc m c t, PhiAcc_pos m c _ _ hz, accAt_next m c t h0]
    unfold step
    by_cases h1 : t.val % 8 = 7
    · rw [show (dats m 0 c).leavesExact 4 t = owns (c : Thread nD τ) (ms4 t) fullShare ((dats m 0 c).after 4 t) from by
        unfold Dat.leavesExact; rw [live4 t h1], after4, accAt_next m c t h0]
      unfold step
      iintro ⟨HS, Ho, ⟨%d0, H0⟩, ⟨%d1, H1⟩, ⟨%d2, H2⟩, ⟨%d3, H3⟩, ⟨%d4, H4⟩⟩
      iapply (runLast c (grid0.coords t) (ms0 t) (hs0 t) (ms1 t) (hs1 t) (ms2 t) (hs2 t) (ms3 t) (hs3 t) (ms4 t) (hs4 t) accM (Memref.isWhole_whole _)
        (fun h => h0 ((isFirst_iff t).mp h)) ((isLast_iff t).mpr h1) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t (idle4 t h1) (noFlush4 t h1)]
      iintro ⟨HS, Ho, ⟨%d0, H0⟩, ⟨%d1, H1⟩, ⟨%d2, H2⟩, ⟨%d3, H3⟩, ⟨%d4, H4⟩⟩
      iapply (runMid c (grid0.coords t) (ms0 t) (hs0 t) (ms1 t) (hs1 t) (ms2 t) (hs2 t) (ms3 t) (hs3 t) (ms4 t) (hs4 t) accM (Memref.isWhole_whole _)
        (fun h => h0 ((isFirst_iff t).mp h)) (fun h => h1 ((isLast_iff t).mp h)) (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tiled

end
-- ==== Proof.IdealRun.Launch.lean ====
/-
  The launch. The region is entered holding each argument array whole; the array of features is read through
  two windows (the block of output rows and the block of summed rows), and so is the array of values, so each
  array's full share is halved between its two windows, and the halves are joined again at the end. The scratch,
  the only scoped buffer that is no staging buffer, enters the invariant at arbitrary contents and leaves it
  with its contents forgotten. The run ends with every window's array at what the write-backs made of it; an
  input window's array is never written, which is the frame.
-/
import proofs.«139288_j19018115186783_1_alg».proof.Proof.IdealRun.Accum

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three buffers behind the five windows, each whole at the full share, make the windows' arrays at
    their shares: the two argument arrays halved. -/
theorem arrays_in (c : Dev nD) :
    (Pipeline.arrBufs spec0 c (V m c) : sProp 𝕄) ⊢ (dats m 0 c).arrays ((dats m 0 c).arrAt · 0) := by
  unfold Pipeline.arrBufs Dat.arrays
  rw [bigSep_W0]
  rw [show Finset.univ.image (Pipeline.arrRef spec0) = {main_arg1, main_arg0, main_v0} from by decide]
  rw [bigSep_insert (by decide), bigSep_insert (by decide), bigSep_singleton]
  rw [(arr_whole0 0).set_eq_univ, (arr_whole0 2).set_eq_univ, (arr_whole0 4).set_eq_univ]
  rw [show (dats m 0 c).share 0 = fullShare.left from rfl, show (dats m 0 c).share 1 = fullShare.right from rfl,
    show (dats m 0 c).share 2 = fullShare.left from rfl, show (dats m 0 c).share 3 = fullShare.right from rfl,
    show (dats m 0 c).share 4 = fullShare from rfl]
  show iprop(_ ∗ _ ∗ _) ⊢ _
  iintro ⟨H1, H0, Hv⟩
  ihave H1' := (pointsTo_share (PosShare.mem_left_op_right fullShare)).1 $$ H1
  icases H1' with ⟨H1l, H1r⟩
  ihave H0' := (pointsTo_share (PosShare.mem_left_op_right fullShare)).1 $$ H0
  icases H0' with ⟨H0l, H0r⟩
  isplitl [H1l]; · iexact H1l
  isplitl [H1r]; · iexact H1r
  isplitl [H0l]; · iexact H0l
  isplitl [H0r]; · iexact H0r
  iexact Hv

/-- No unscoped buffer bypasses the region: every one is a window's array. -/
theorem rest_in (c : Dev nD) :
    (Pipeline.unscopedRest spec0 c (V m c) : sProp 𝕄) ⊢ iprop((BI.emp : sProp 𝕄) ∗ (BI.emp : sProp 𝕄)) := by
  rw [unscopedRest0_eq]
  iintro -
  isplitl [] <;> iempintro

/-- The scratch, at whatever it holds, is the invariant before the first point. -/
theorem acc_in (c : Dev nD) :
    iprop((BI.emp : sProp 𝕄) ∗ Pipeline.scopedRest spec0 c) ⊢ (dats m 0 c).Φ 0 := by
  rw [show (dats m 0 c).Φ 0 = PhiAcc m c 0 (Nat.zero_le _) from rfl, PhiAcc_zero m c 0 _ rfl, scopedRest0_eq]
  simp only [accM, owns_whole]
  iintro ⟨-, H⟩; iexact H

/-- After the last point the invariant gives the scratch back, its contents forgotten. -/
theorem acc_out (c : Dev nD) :
    (dats m 0 c).Φ (Fin.last cfg0.N) ⊢ iprop((BI.emp : sProp 𝕄) ∗ Pipeline.scopedRest spec0 c) := by
  rw [show (dats m 0 c).Φ (Fin.last cfg0.N) = PhiAcc m c cfg0.N (Nat.le_refl _) from rfl,
    PhiAcc_pos m c _ _ (by have : cfg0.N = 64 := N_0; omega), scopedRest0_eq]
  simp only [accM, owns_whole]
  iintro H
  isplitr; · iempintro
  iexists _; iexact H

/-- At the compiled mesh, from any memory with zero counters: every weakly fair execution of @main terminates,
    nothing faulting, with every window's array at what the write-backs of all 64 points made of it. -/
theorem run_main : θ_run defs (onTc (τ := τ) (main (F := F))) ⟨m, fun _ => 0, ρ⟩ (fun r => ∀ c : Dev nD,
      ∀ w, r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m) (hmain := Pipeline.hmain_region cfgs 0 defs₀ Variants.none m main (fun _ => rfl))
    (hsplit := arrays_in m)
    (X := fun _ => (BI.emp : sProp 𝕄)) (Y := fun _ => (BI.emp : sProp 𝕄)) (Z := fun _ => (BI.emp : sProp 𝕄))
    (hX := rest_in m) (hin := acc_in m) (hout := acc_out m)
    (QY := fun _ _ => True)
    (hY := fun c s' => by
      iintro ⟨-, -, HSI⟩; imodintro
      isplitr; · ipureintro; trivial
      iexact HSI)
    (hQ := fun s h c w => (h c).1 w)

/-- THE FRAME: every weakly fair execution terminates, nothing faulting, and the two argument arrays end as
    they were: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c) 2).trans (((dats m 0 c).arrAt_in 2 rfl _).trans (A_eq m c 2)),
     ((h c) 0).trans (((dats m 0 c).arrAt_in 0 rfl _).trans (A_eq m c 0))⟩) (run_main m ρ)

/-- The same run, the result array named: it ends at what the eight write-backs of window 4 made of it. -/
theorem run_out : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c) 4,
     ((h c) 2).trans (((dats m 0 c).arrAt_in 2 rfl _).trans (A_eq m c 2)),
     ((h c) 0).trans (((dats m 0 c).arrAt_in 0 rfl _).trans (A_eq m c 0))⟩) (run_main m ρ)

end Cert.KernelIdeal.Tiled

end
-- ==== Proof.Filter.lean ====
/-
  The exact Gaussian filter over the extended reals, as one function of the two argument arrays.

  For N = 8192 points with features r_i in R^5 and values U_i in R^16 the result is
      out_i = sum_j w(r_i, r_j) * U_j - U_i,      w(a, b) = exp(-1/2 * max(|a|^2 + |b|^2 - 2 <a, b>, 0)),
  the squared distance written by the Gram expansion and clamped at zero. Both programs compute exactly
  this expression entry by entry; they differ only in how the sum over j is grouped (one pass of 8192
  terms, or eight tiles of 1024 terms added one after the other to a running sum that starts at zero).
  Addition of extended reals is commutative and associative, so the regrouping needs no finiteness.

  The three float literals of the programs (2, -1/2 and 0) are kept as their binary words: the same word
  stands on both sides and is never evaluated, except that the zero word is the additive zero.
-/
import Idealize.ShloMosaic.PureOps.Ideal
import Idealize.ShloMosaic.Lib.ValueIdx
import Mathlib.Algebra.BigOperators.Fin
import Mathlib.Logic.Equiv.Fin.Basic

noncomputable section

namespace Cert.Filter

open Idealize.ShloMosaic Idealize.ShloMosaic.ValueIdx

/-- The literal 2 of the Gram expansion, as its f32 word. -/
abbrev two : EReal := Ideal.ofBits .f32 0x40000000#32
/-- The literal -1/2 of the exponent, as its f32 word. -/
abbrev negHalf : EReal := Ideal.ofBits .f32 0xBF000000#32
/-- The literal 0 the squared distance is clamped at, as its f32 word. -/
abbrev zeroLit : EReal := Ideal.ofBits .f32 0x00000000#32

/-- The squared length of a feature row. -/
def sqLen (a : Fin 5 → EReal) : EReal := ∑ d : Fin 5, a d * a d

/-- The Gaussian weight of two feature rows: exp(-1/2 max(|a|^2 + |b|^2 - 2 <a, b>, 0)). -/
def weight (a b : Fin 5 → EReal) : EReal :=
  Ideal.exp (negHalf * max (sqLen a + sqLen b - two * ∑ d : Fin 5, a d * b d) zeroLit)

/-- Row `i` of an array of feature rows. -/
abbrev row {n : Nat} (R : (⟨2, ![n, 5]⟩ : Shape).Idx → EReal) (i : Fin n) : Fin 5 → EReal := fun d => R (ix2 i d)

/-- The filter: entry (i, c) of the result. -/
def G (U : (⟨2, ![8192, 16]⟩ : Shape).Idx → EReal) (R : (⟨2, ![8192, 5]⟩ : Shape).Idx → EReal) :
    (⟨2, ![8192, 16]⟩ : Shape).Idx → EReal := fun y =>
  (∑ j : Fin 8192, weight (row R (y 0)) (row R j) * U (ix2 j (y 1))) - U y

/-- One tile's contribution to entry (r, c) of a block of 1024 result rows: the weighted sum over the 1024
    rows of the tile, from the block `X` of the result rows' features, the block `Y` of the tile's
    features and the block `Z` of the tile's values. -/
def tile (X Y : (⟨2, ![1024, 5]⟩ : Shape).Idx → EReal) (Z : (⟨2, ![1024, 16]⟩ : Shape).Idx → EReal)
    (r : Fin 1024) (c : Fin 16) : EReal :=
  ∑ j : Fin 1024, weight (row X r) (row Y j) * Z (ix2 j c)

/-- A sum over 8192 positions is the sum over 8 tiles of the sums over each tile's 1024 positions. -/
theorem sum_tiles {M : Type} [AddCommMonoid M] (f : Fin 8192 → M) :
    ∑ j : Fin 8192, f j = ∑ k : Fin 8, ∑ r : Fin 1024, f ⟨k.val * 1024 + r.val, by omega⟩ := by
  rw [← Fintype.sum_prod_type' (f := fun (k : Fin 8) (r : Fin 1024) => f ⟨k.val * 1024 + r.val, by omega⟩)]
  refine (Fintype.sum_equiv (finProdFinEquiv (m := 8) (n := 1024)) _ _ ?_).symm
  rintro ⟨k, r⟩
  refine congrArg f (Fin.ext ?_)
  simp only [finProdFinEquiv_apply_val]
  omega

end Cert.Filter

end
-- ==== Proof.TileValue.lean ====
/-
  One step of the tiled Gaussian filter, read entry by entry over the extended reals.

  The filter out[i, c] = sum_j w(r_i, r_j) * U[j, c] - U[i, c], with
  w(a, b) = exp(-1/2 * max(|a|^2 + |b|^2 - 2 <a, b>, 0)), is computed block by block: for a block X of 1024
  result rows' features and a block Y of 1024 summed rows' features (five features a row) and the block Z of the
  summed rows' values (sixteen a row), a running sum S of shape 1024 x 16 starts at the zero block, each tile
  adds to it the product of the 1024 x 1024 matrix of weights W[r, j] = w(X_r, Y_j) and Z, and the last step
  subtracts the result rows' own values.

  Here the three pure expressions of that loop are read at an entry (r, c):
    * the starting block is 0 everywhere                                   (pay2_apply);
    * the last step is a(r, c) - b(r, c)                                   (pay1_apply);
    * one tile's step is S(r, c) + sum_j w(X_r, Y_j) * Z(j, c)             (pay3_apply),
  the last through four readings: the squared length of a row as the sum of the squares of its five features
  (sqCol_apply), the matrix of inner products <X_r, Y_j> (gram_apply), the weight at (r, j) from those
  (wtM_apply), and the product with Z as a sum over the 1024 rows of the tile (wsum_apply). A change of float
  format is the identity on extended reals, a matrix product accumulated from the zero block is the bare sum, and
  the literals 2 and -1/2 stay the words they are written as; only the zero word is read as 0.
-/
import proofs.«139288_j19018115186783_1_alg».proof.Proof.Gen.KernelIdeal.Skeleton
import proofs.«139288_j19018115186783_1_alg».proof.Proof.Filter
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx

/-! ## Three layout operations at coordinates -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The squared lengths of a block's rows -/

/-- The column of the squared lengths of the rows of a block of features. -/
def sqCol (x : FVec Ideal S1024x5 .f32) : FVec Ideal S1024x1 .f32 :=
  shapeCast S1024x1
    (multiReduction (F := Ideal) .add [1] S1024 (mulf x x) 0x00000000#32 reduces_S1024x5_S1024 (.inl rfl) rfl)
    shapeCasts_S1024_S1024x1

/-- Entry r of that column is the sum over the five features of row r of their squares. -/
theorem sqCol_apply (x : FVec Ideal S1024x5 .f32) (r : Fin 1024) (u : Fin 1) :
    sqCol x (ix2 r u) = Cert.Filter.sqLen (Cert.Filter.row x r) := by
  unfold sqCol
  refine (shapeCast_a_a1_apply _ shapeCasts_S1024_S1024x1 r u).trans ?_
  refine (Ideal.multiReduction_add_single (mulf x x) 0x00000000#32 reduces_S1024x5_S1024 (.inl rfl) rfl (ix1 r)).trans ?_
  show ∑ d : Fin 5, (mulf x x) (reduces_S1024x5_S1024.lift (ix1 r) d) = ∑ d : Fin 5, x (ix2 r d) * x (ix2 r d)
  refine Finset.sum_congr rfl fun d _ => ?_
  have e : reduces_S1024x5_S1024.lift (ix1 r) d = ix2 r d :=
    funext fun a => Fin.ext (by match a with | ⟨0, _⟩ => rfl | ⟨1, _⟩ => rfl)
  exact congrArg (fun i => x i * x i) e

/-! ## The first product: the inner products of the rows of two blocks -/

/-- The left operand's row is the output's row. -/
theorem gram_lhs_0 (i : S1024x1024.Idx) (q : dot_S1024x5_S1024x5_S1024x1024_1_1_0_0_n_n.contr.Idx) :
    (dot_S1024x5_S1024x5_S1024x1024_1_1_0_0_n_n.lhsIdx i q 0).val = (i 0).val := by
  unfold DotDims.lhsIdx
  rw [dif_neg (show ¬(0 : Fin S1024x5.rank) ∈ dot_S1024x5_S1024x5_S1024x1024_1_1_0_0_n_n.lhsBatch by decide),
    dif_pos (show (0 : Fin S1024x5.rank) ∈ dot_S1024x5_S1024x5_S1024x1024_1_1_0_0_n_n.lhsNonContracting by decide)]
  rfl

/-- The left operand's column is the summed position. -/
theorem gram_lhs_1 (i : S1024x1024.Idx) (q : dot_S1024x5_S1024x5_S1024x1024_1_1_0_0_n_n.contr.Idx) :
    (dot_S1024x5_S1024x5_S1024x1024_1_1_0_0_n_n.lhsIdx i q 1).val = (q ⟨0, by decide⟩).val :=
  dot_S1024x5_S1024x5_S1024x1024_1_1_0_0_n_n.lhsIdx_val_of_single rfl i q

/-- The right operand's row is the output's column. -/
theorem gram_rhs_0 (i : S1024x1024.Idx) (q : dot_S1024x5_S1024x5_S1024x1024_1_1_0_0_n_n.contr.Idx) :
    (dot_S1024x5_S1024x5_S1024x1024_1_1_0_0_n_n.rhsIdx i q 0).val = (i 1).val := by
  unfold DotDims.rhsIdx
  rw [dif_neg (show ¬(0 : Fin S1024x5.rank) ∈ dot_S1024x5_S1024x5_S1024x1024_1_1_0_0_n_n.rhsBatch by decide),
    dif_pos (show (0 : Fin S1024x5.rank) ∈ dot_S1024x5_S1024x5_S1024x1024_1_1_0_0_n_n.rhsNonContracting by decide)]
  rfl

/-- The right operand's column is the summed position. -/
theorem gram_rhs_1 (i : S1024x1024.Idx) (q : dot_S1024x5_S1024x5_S1024x1024_1_1_0_0_n_n.contr.Idx) :
    (dot_S1024x5_S1024x5_S1024x1024_1_1_0_0_n_n.rhsIdx i q 1).val = (q ⟨0, by decide⟩).val :=
  dot_S1024x5_S1024x5_S1024x1024_1_1_0_0_n_n.rhsIdx_val_of_single rfl i q

/-- The matrix of inner products of the rows of two blocks of features, accumulated from zero. -/
def gram (x0 x1 : FVec Ideal S1024x5 .f32) : FVec Ideal S1024x1024 .f32 :=
  matmul dot_S1024x5_S1024x5_S1024x1024_1_1_0_0_n_n (some .fp32) x0 x1 (constant S1024x1024 .f32 0x00000000#32)

/-- Its entry (r, j) is the inner product of row r of the first block and row j of the second. -/
theorem gram_apply (x0 x1 : FVec Ideal S1024x5 .f32) (r j : Fin 1024) :
    gram x0 x1 (ix2 r j) = ∑ d : Fin 5, x0 (ix2 r d) * x1 (ix2 j d) := by
  unfold gram
  refine (Ideal.matmul_constant_zero_apply dot_S1024x5_S1024x5_S1024x1024_1_1_0_0_n_n (some .fp32) x0 x1 (ix2 r j)).trans ?_
  refine (Equiv.sum_comp (contrEquiv1 dot_S1024x5_S1024x5_S1024x1024_1_1_0_0_n_n 5 rfl rfl).symm _).symm.trans ?_
  refine Finset.sum_congr rfl fun k _ => ?_
  have hk := contrEquiv1_symm_val dot_S1024x5_S1024x5_S1024x1024_1_1_0_0_n_n 5 rfl rfl k
  have el : dot_S1024x5_S1024x5_S1024x1024_1_1_0_0_n_n.lhsIdx (ix2 r j)
      ((contrEquiv1 dot_S1024x5_S1024x5_S1024x1024_1_1_0_0_n_n 5 rfl rfl).symm k) = ix2 r k :=
    funext fun a => Fin.ext (by
      match a with
      | ⟨0, _⟩ => exact gram_lhs_0 _ _
      | ⟨1, _⟩ => exact (gram_lhs_1 _ _).trans hk)
  have er : dot_S1024x5_S1024x5_S1024x1024_1_1_0_0_n_n.rhsIdx (ix2 r j)
      ((contrEquiv1 dot_S1024x5_S1024x5_S1024x1024_1_1_0_0_n_n 5 rfl rfl).symm k) = ix2 j k :=
    funext fun a => Fin.ext (by
      match a with
      | ⟨0, _⟩ => exact gram_rhs_0 _ _
      | ⟨1, _⟩ => exact (gram_rhs_1 _ _).trans hk)
  exact congrArg₂ (· * ·) (congrArg x0 el) (congrArg x1 er)

/-! ## The Gaussian weights of the rows of two blocks -/

/-- The matrix of weights: exp(-1/2 max(|a|^2 + |b|^2 - 2 <a, b>, 0)) for a a row of the first block and b a row
    of the second, the squared lengths spread along the rows and along the columns. -/
def wtM (x0 x1 : FVec Ideal S1024x5 .f32) : FVec Ideal S1024x1024 .f32 :=
  exp (mulf (broadcast S1024x1024 (Scalar.ofBits (F := Ideal) .f32 0xBF000000#32))
    (maximumf
      (subf
        (addf (broadcastTo S1024x1024 (sqCol x0) broadcasts_S1024x1_S1024x1024)
          (broadcastTo S1024x1024 (transpose S1x1024 [1, 0] (sqCol x1) transposes_S1024x1_p1_0_S1x1024)
            broadcasts_S1x1024_S1024x1024))
        (mulf (broadcast S1024x1024 (Scalar.ofBits (F := Ideal) .f32 0x40000000#32)) (gram x0 x1)))
      (broadcast S1024x1024 (Scalar.ofBits (F := Ideal) .f32 0x00000000#32))))

/-- The squared lengths of the first block's rows, spread along the rows: at (r, j) the squared length of row r. -/
theorem sqRows_apply (x : FVec Ideal S1024x5 .f32) (r j : Fin 1024) :
    broadcastTo S1024x1024 (sqCol x) broadcasts_S1024x1_S1024x1024 (ix2 r j)
      = Cert.Filter.sqLen (Cert.Filter.row x r) :=
  (broadcastTo_a1_ab_apply (sqCol x) broadcasts_S1024x1_S1024x1024 r j).trans (sqCol_apply x r 0)

/-- The squared lengths of the second block's rows, laid as a row and spread along the columns: at (r, j) the
    squared length of row j. -/
theorem sqCols_apply (x : FVec Ideal S1024x5 .f32) (r j : Fin 1024) :
    broadcastTo S1024x1024 (transpose S1x1024 [1, 0] (sqCol x) transposes_S1024x1_p1_0_S1x1024)
        broadcasts_S1x1024_S1024x1024 (ix2 r j)
      = Cert.Filter.sqLen (Cert.Filter.row x j) :=
  ((broadcastTo_1b_ab_apply _ broadcasts_S1x1024_S1024x1024 r j).trans
    (transpose_ix2_apply (sqCol x) transposes_S1024x1_p1_0_S1x1024 (0 : Fin 1) j)).trans (sqCol_apply x j 0)

/-- Entry (r, j) of the matrix of weights is the weight of row r of the first block and row j of the second. -/
theorem wtM_apply (x0 x1 : FVec Ideal S1024x5 .f32) (r j : Fin 1024) :
    wtM x0 x1 (ix2 r j) = Cert.Filter.weight (Cert.Filter.row x0 r) (Cert.Filter.row x1 j) :=
  congrArg (fun t => Ideal.exp (Cert.Filter.negHalf * max t Cert.Filter.zeroLit))
    (congrArg₂ (· - ·) (congrArg₂ (· + ·) (sqRows_apply x0 r j) (sqCols_apply x1 r j))
      (congrArg (Cert.Filter.two * ·) (gram_apply x0 x1 r j)))

/-! ## The second product: the weighted sums of a block of values -/

/-- The left operand's row is the output's row. -/
theorem wsum_lhs_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide),
    dif_pos (show (0 : Fin S1024x1024.rank) ∈ dot_S1024x1024_S1024x16_S1024x16_1_0_0_1_n_n.lhsNonContracting by decide)]
  rfl

/-- The left operand's column is the summed position. -/
theorem wsum_lhs_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q

/-- The right operand's row is the summed position. -/
theorem wsum_rhs_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q

/-- The right operand's column is the output's column. -/
theorem wsum_rhs_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide),
    dif_pos (show (1 : Fin S1024x16.rank) ∈ dot_S1024x1024_S1024x16_S1024x16_1_0_0_1_n_n.rhsNonContracting by decide)]
  rfl

/-- The product of a 1024 x 1024 matrix and a block of values, accumulated from zero; on extended reals the
    narrowing of both operands to bf16 changes nothing. -/
def wsum (w : FVec Ideal S1024x1024 .f32) (z : FVec Ideal S1024x16 .f32) : FVec Ideal S1024x16 .f32 :=
  matmul dot_S1024x1024_S1024x16_S1024x16_1_0_0_1_n_n none (truncf .bf16 w bitsLt_bf16_f32)
    (truncf .bf16 z bitsLt_bf16_f32) (constant S1024x16 .f32 0x00000000#32)

/-- Its entry (r, c) is the sum over j of the matrix at (r, j) times the values at (j, c). -/
theorem wsum_apply (w : FVec Ideal S1024x1024 .f32) (z : FVec Ideal S1024x16 .f32) (r : Fin 1024) (c : Fin 16) :
    wsum w z (ix2 r c) = ∑ j : Fin 1024, w (ix2 r j) * z (ix2 j c) := by
  unfold wsum
  refine (Ideal.matmul_constant_zero_apply dot_S1024x1024_S1024x16_S1024x16_1_0_0_1_n_n none
    (truncf .bf16 w bitsLt_bf16_f32) (truncf .bf16 z bitsLt_bf16_f32) (ix2 r c)).trans ?_
  refine (Equiv.sum_comp (contrEquiv1 dot_S1024x1024_S1024x16_S1024x16_1_0_0_1_n_n 1024 rfl rfl).symm _).symm.trans ?_
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 r c)
      ((contrEquiv1 dot_S1024x1024_S1024x16_S1024x16_1_0_0_1_n_n 1024 rfl rfl).symm k) = ix2 r k :=
    funext fun a => Fin.ext (by
      match a with
      | ⟨0, _⟩ => exact wsum_lhs_0 _ _
      | ⟨1, _⟩ => exact (wsum_lhs_1 _ _).trans hk)
  have er : dot_S1024x1024_S1024x16_S1024x16_1_0_0_1_n_n.rhsIdx (ix2 r c)
      ((contrEquiv1 dot_S1024x1024_S1024x16_S1024x16_1_0_0_1_n_n 1024 rfl rfl).symm k) = ix2 k c :=
    funext fun a => Fin.ext (by
      match a with
      | ⟨0, _⟩ => exact (wsum_rhs_0 _ _).trans hk
      | ⟨1, _⟩ => exact wsum_rhs_1 _ _)
  exact congrArg₂ (· * ·) (congrArg w el) (congrArg z er)

/-! ## The three payloads -/

/-- The block the running sum starts from is the zero block. -/
theorem pay2_eq : k0_pay2 (F := Ideal)
    = shapeCast S1024x16 (broadcast S1024x16 (Scalar.ofBits (F := Ideal) .f32 0x00000000#32))
        shapeCasts_S1024x16_S1024x16 := rfl

/-- Every entry of the starting block is zero. -/
theorem pay2_apply (r : Fin 1024) (c : Fin 16) : k0_pay2 (F := Ideal) (ix2 r c) = 0 := by
  refine (congrFun pay2_eq (ix2 r c)).trans ?_
  refine (congrFun (shapeCast_self _ shapeCasts_S1024x16_S1024x16) (ix2 r c)).trans ?_
  exact Ideal.ofBits_zero_f32

/-- The last step subtracts the block of the result rows' values from the running sum, entry by entry. -/
theorem pay1_apply (a b : Vec Ideal S1024x16 .f32) (r : Fin 1024) (c : Fin 16) :
    k0_pay1 (F := Ideal) a b (ix2 r c) = a (ix2 r c) - b (ix2 r c) := rfl

/-- One step of the running sum: the sum so far plus the product of the matrix of weights and the tile's values. -/
theorem pay3_eq (x0 x1 : Vec Ideal S1024x5 .f32) (x2 xs : Vec Ideal S1024x16 .f32) :
    k0_pay3 (F := Ideal) x0 x1 x2 xs
      = shapeCast S1024x16 (addf xs (wsum (wtM x0 x1) x2)) shapeCasts_S1024x16_S1024x16 := rfl

/-- Entry (r, c) after one step: the sum so far plus the tile's weighted sum for that entry. -/
theorem pay3_apply (x0 x1 : Vec Ideal S1024x5 .f32) (x2 xs : Vec Ideal S1024x16 .f32) (r : Fin 1024) (c : Fin 16) :
    k0_pay3 (F := Ideal) x0 x1 x2 xs (ix2 r c) = xs (ix2 r c) + Cert.Filter.tile x0 x1 x2 r c := by
  refine (congrFun (pay3_eq x0 x1 x2 xs) (ix2 r c)).trans ?_
  refine (congrFun (shapeCast_self _ shapeCasts_S1024x16_S1024x16) (ix2 r c)).trans ?_
  refine congrArg (xs (ix2 r c) + ·) ?_
  refine (wsum_apply (wtM x0 x1) x2 r c).trans ?_
  unfold Cert.Filter.tile
  exact Finset.sum_congr rfl fun j _ => congrArg (· * x2 (ix2 j c)) (wtM_apply x0 x1 r j)

end Cert.KernelIdeal.TileValue

end
-- ==== Proof.KernelValue.lean ====
/-
  What the result array holds after the run, at the ideal instance: the filter `Cert.Filter.G` of the
  two argument arrays.

  Point number t of the grid works on output rows q*1024 .. q*1024 + 1023 and summed rows k*1024 ..
  k*1024 + 1023, with q = t / 8 and k = t % 8. After its body the scratch holds, at (r, c), the sum over
  the tiles k' <= k of the tile sums  sum_j w(row q*1024 + r, row k'*1024 + j) * U[k'*1024 + j, c]  (induction
  on the point: the sum restarts from the zero block at k = 0, and 0 + x = x). At k = 7 the body writes the
  block q of the result: that running sum less U[q*1024 + r, c]. A sum over all 8192 rows is the sum over the
  8 tiles of the sums over each tile's 1024 rows, so the written block is block q of the filter; the 8 written
  blocks cover the result array.
-/
import proofs.«139288_j19018115186783_1_alg».proof.Proof.IdealRun.Launch
import proofs.«139288_j19018115186783_1_alg».proof.Proof.TileValue
import proofs.«139288_j19018115186783_1_alg».proof.Proof.Filter
import Idealize.ShloMosaic.Lib.ValueIdx
import Idealize.ShloMosaic.Lib.Pipeline.Value

set_option maxRecDepth 16384

noncomputable section

namespace Cert.KernelIdeal.Tiled

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Filter (weight row tile)

variable (m : (ℓ : Loc nD τ sig) → Buf (Elt Ideal) ℓ)

/-! ## The argument arrays by row number -/

/-- Feature row number `i` of the second argument (zero past the array: never read). -/
def featN (c : Dev nD) (i : ℕ) : Fin 5 → EReal :=
  fun d => if h : i < 8192 then (V m c main_arg1 (ix2 ⟨i, h⟩ d) : EReal) else 0
/-- Entry (i, q) of the first argument, by row number. -/
def valN (c : Dev nD) (i : ℕ) (q : Fin 16) : EReal :=
  if h : i < 8192 then (V m c main_arg0 (ix2 ⟨i, h⟩ q) : EReal) else 0

theorem featN_eq (c : Dev nD) (i : Fin 8192) : featN m c i.val = row (n := 8192) (V m c main_arg1) i := by
  funext d; unfold featN; rw [dif_pos i.isLt]
theorem valN_eq (c : Dev nD) (i : Fin 8192) (q : Fin 16) : valN m c i.val q = V m c main_arg0 (ix2 i q) := by
  unfold valN; rw [dif_pos i.isLt]

/-- One tile's sum by row numbers: output row q*1024 + r against the rows of tile k. -/
def tileN (c : Dev nD) (q k : ℕ) (r : Fin 1024) (cc : Fin 16) : EReal :=
  ∑ j : Fin 1024, weight (featN m c (q * 1024 + r.val)) (featN m c (k * 1024 + j.val)) * valN m c (k * 1024 + j.val) cc

/-! ## The windows' blocks, read at an index -/

/-- The printed index maps, decided over the 64 points: the windows of the output rows sit at block t / 8,
    those of the summed rows at block t % 8, all at column block 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

theorem lt64 (t : Fin cfg0.N) : t.val < 64 := lt_of_lt_of_eq t.isLt (show cfg0.N = 64 from N_0)

/-- Row r of the block of output rows' features is feature row (t / 8) * 1024 + r. -/
theorem blk_feat_out (c : Dev nD) (t : Fin cfg0.N) (r : Fin 1024) :
    row (n := 1024) (iblk m c 0 t) r = featN m c (t.val / 8 * 1024 + r.val) := by
  funext d
  have hN := lt64 t
  have hb : t.val / 8 * 1024 + r.val < 8192 := by omega
  unfold featN; rw [dif_pos hb]
  show V m c main_arg1 (((cfg0.win 0).blk t).view.emb (ix2 r d)) = _
  refine congrArg (V m c main_arg1) ?_
  obtain ⟨e0, e1, -⟩ := idx_facts t
  funext a; apply Fin.ext
  match a with
  | ⟨0, _⟩ => show win0_0.index t (0 : Fin 2) * 1024 + 1 * r.val = t.val / 8 * 1024 + r.val; omega
  | ⟨1, _⟩ => show win0_0.index t (1 : Fin 2) * 5 + 1 * d.val = d.val; omega

/-- Row j of the block of summed rows' features is feature row (t % 8) * 1024 + j. -/
theorem blk_feat_sum (c : Dev nD) (t : Fin cfg0.N) (j : Fin 1024) :
    row (n := 1024) (iblk m c 1 t) j = featN m c (t.val % 8 * 1024 + j.val) := by
  funext d
  have hb : t.val % 8 * 1024 + j.val < 8192 := by omega
  unfold featN; rw [dif_pos hb]
  show V m c main_arg1 (((cfg0.win 1).blk t).view.emb (ix2 j d)) = _
  refine congrArg (V m c main_arg1) ?_
  obtain ⟨-, -, e0, e1, -⟩ := idx_facts t
  funext a; apply Fin.ext
  match a with
  | ⟨0, _⟩ => show win0_1.index t (0 : Fin 2) * 1024 + 1 * j.val = t.val % 8 * 1024 + j.val; omega
  | ⟨1, _⟩ => show win0_1.index t (1 : Fin 2) * 5 + 1 * d.val = d.val; omega

/-- Entry (j, c) of the block of summed rows' values is value entry ((t % 8) * 1024 + j, c). -/
theorem blk_val_sum (c : Dev nD) (t : Fin cfg0.N) (j : Fin 1024) (cc : Fin 16) :
    (iblk m c 2 t (ix2 j cc) : EReal) = valN m c (t.val % 8 * 1024 + j.val) cc := by
  have hb : t.val % 8 * 1024 + j.val < 8192 := by omega
  unfold valN; rw [dif_pos hb]
  show V m c main_arg0 (((cfg0.win 2).blk t).view.emb (ix2 j cc)) = _
  refine congrArg (V m c main_arg0) ?_
  obtain ⟨-, -, -, -, e0, e1, -⟩ := idx_facts t
  funext a; apply Fin.ext
  match a with
  | ⟨0, _⟩ => show win0_2.index t (0 : Fin 2) * 1024 + 1 * j.val = t.val % 8 * 1024 + j.val; omega
  | ⟨1, _⟩ => show win0_2.index t (1 : Fin 2) * 16 + 1 * cc.val = cc.val; omega

/-- Entry (r, c) of the block of the output rows' own values is value entry ((t / 8) * 1024 + r, c). -/
theorem blk_val_out (c : Dev nD) (t : Fin cfg0.N) (r : Fin 1024) (cc : Fin 16) :
    (iblk m c 3 t (ix2 r cc) : EReal) = valN m c (t.val / 8 * 1024 + r.val) cc := by
  have hN := lt64 t
  have hb : t.val / 8 * 1024 + r.val < 8192 := by omega
  unfold valN; rw [dif_pos hb]
  show V m c main_arg0 (((cfg0.win 3).blk t).view.emb (ix2 r cc)) = _
  refine congrArg (V m c main_arg0) ?_
  obtain ⟨-, -, -, -, -, -, e0, e1, -⟩ := idx_facts t
  funext a; apply Fin.ext
  match a with
  | ⟨0, _⟩ => show win0_3.index t (0 : Fin 2) * 1024 + 1 * r.val = t.val / 8 * 1024 + r.val; omega
  | ⟨1, _⟩ => show win0_3.index t (1 : Fin 2) * 16 + 1 * cc.val = cc.val; omega

/-- The tile sum of point t's three input blocks is the tile sum by row numbers at (t / 8, t % 8). -/
theorem tile_at (c : Dev nD) (t : Fin cfg0.N) (r : Fin 1024) (cc : Fin 16) :
    tile (iblk m c 0 t) (iblk m c 1 t) (iblk m c 2 t) r cc = tileN m c (t.val / 8) (t.val % 8) r cc := by
  unfold Cert.Filter.tile tileN
  refine Finset.sum_congr rfl fun j _ => ?_
  rw [blk_feat_out m c t r, blk_feat_sum m c t j, blk_val_sum m c t j cc]

/-! ## The running sum is the sum of the tiles so far -/

/-- After the body at point n the scratch holds, at (r, c), the tile sums of tiles 0 .. n % 8 of output
    block n / 8. -/
theorem acc_eq (c : Dev nD) : ∀ (n : ℕ) (hn : n < cfg0.N) (r : Fin 1024) (cc : Fin 16),
    (accAt m c n hn (ix2 r cc) : EReal) = ∑ k ∈ Finset.range (n % 8 + 1), tileN m c (n / 8) k r cc
  | 0, hn, r, cc => by
    rw [accAt_first m c ⟨0, hn⟩ rfl]; unfold step
    rw [Cert.KernelIdeal.TileValue.pay3_apply, Cert.KernelIdeal.TileValue.pay2_apply, zero_add, tile_at]
    exact (Finset.sum_range_one (fun k => tileN m c (0 / 8) k r cc)).symm
  | n + 1, hn, r, cc => by
    by_cases h : (n + 1) % 8 = 0
    · rw [accAt_first m c ⟨n + 1, hn⟩ h]; unfold step
      rw [Cert.KernelIdeal.TileValue.pay3_apply, Cert.KernelIdeal.TileValue.pay2_apply, zero_add, tile_at]
      show tileN m c ((n + 1) / 8) ((n + 1) % 8) r cc = _
      rw [h]; exact (Finset.sum_range_one (fun k => tileN m c ((n + 1) / 8) k r cc)).symm
    · rw [accAt_next m c ⟨n + 1, hn⟩ h]; unfold step
      rw [Cert.KernelIdeal.TileValue.pay3_apply, tile_at]
      show (accAt m c n (Nat.lt_of_succ_lt hn) (ix2 r cc) : EReal) + tileN m c ((n + 1) / 8) ((n + 1) % 8) r cc = _
      rw [acc_eq c n (Nat.lt_of_succ_lt hn) r cc]
      have e1 : (n + 1) / 8 = n / 8 := by omega
      have e2 : (n + 1) % 8 = n % 8 + 1 := by omega
      rw [e1, e2, Finset.sum_range_succ (fun k => tileN m c (n / 8) k r cc) (n % 8 + 1)]

/-! ## The filter by row numbers -/

/-- Entry (q*1024 + r, c) of the filter is the sum of the 8 tile sums less the row's own value entry. -/
theorem G_at (c : Dev nD) (q : ℕ) (hq : q < 8) (r : Fin 1024) (cc : Fin 16) :
    Cert.Filter.G (V m c main_arg0) (V m c main_arg1) (ix2 ⟨q * 1024 + r.val, by omega⟩ cc)
      = (∑ k ∈ Finset.range 8, tileN m c q k r cc) - valN m c (q * 1024 + r.val) cc := by
  unfold Cert.Filter.G
  rw [Cert.Filter.sum_tiles, ← Fin.sum_univ_eq_sum_range (fun k => tileN m c q k r cc) 8]
  refine congrArg₂ (· - ·) (Finset.sum_congr rfl fun k _ => ?_) ?_
  · unfold tileN
    refine Finset.sum_congr rfl fun j _ => ?_
    have hk : k.val * 1024 + j.val < 8192 := by omega
    exact congrArg₂ (· * ·)
      (congrArg₂ weight (featN_eq m c ⟨q * 1024 + r.val, by omega⟩).symm (featN_eq m c ⟨k.val * 1024 + j.val, hk⟩).symm)
      (valN_eq m c ⟨k.val * 1024 + j.val, hk⟩ cc).symm
  · exact (valN_eq m c ⟨q * 1024 + r.val, by omega⟩ cc).symm

/-! ## The written blocks and the result array -/

/-- WHAT A WRITING POINT WRITES BACK is its block of the filter of the argument arrays. -/
theorem flushed_eq (c : Dev nD) (t : Fin cfg0.N) (hf : (cfg0.win 4).flush t = true) :
    (dats m 0 c).flushed 4 t
      = ((cfg0.win 4).blk t).view.read (Elt Ideal) (Cert.Filter.G (V m c main_arg0) (V m c main_arg1)) := by
  have h7 : t.val % 8 = 7 := (flush0_4 t).mp hf
  have hN := lt64 t
  show (cfg0.win 4).cut (grid0.coords t) ((dats m 0 c).after 4 t) = _
  rw [after4]
  funext y
  obtain ⟨r, cc, rfl⟩ : ∃ (r : Fin 1024) (cc : Fin 16), y = ix2 r cc := ⟨y 0, y 1, eq_ix2 y⟩
  have hb : t.val / 8 * 1024 + r.val < 8192 := by omega
  have hemb : ((cfg0.win 4).blk t).view.emb (ix2 r cc) = ix2 ⟨t.val / 8 * 1024 + r.val, hb⟩ cc := by
    obtain ⟨-, -, -, -, -, -, -, -, e0, e1⟩ := idx_facts t
    funext a; apply Fin.ext
    match a with
    | ⟨0, _⟩ => show win0_4.index t (0 : Fin 2) * 1024 + 1 * r.val = t.val / 8 * 1024 + r.val; omega
    | ⟨1, _⟩ => show win0_4.index t (1 : Fin 2) * 16 + 1 * cc.val = cc.val; omega
  show (k0_pay1 (accAt m c t.val t.isLt) (iblk m c 3 t) (ix2 r cc) : EReal)
    = Cert.Filter.G (V m c main_arg0) (V m c main_arg1) (((cfg0.win 4).blk t).view.emb (ix2 r cc))
  rw [hemb, G_at m c (t.val / 8) (by omega) r cc, Cert.KernelIdeal.TileValue.pay1_apply, acc_eq m c t.val t.isLt r cc,
    blk_val_out m c t r cc, h7]

/-- An index of the result array is in point t's block iff each coordinate is in the block's range. -/
theorem mem_blk4 (t : Fin cfg0.N) (i : S8192x16.Idx) :
    i ∈ ((cfg0.win 4).blk t).view.set ↔ ∀ a : Fin 2, win0_4.index t a * S1024x16.size a ≤ (i a).val
      ∧ (i a).val < win0_4.index t a * S1024x16.size a + S1024x16.size a := by
  show i ∈ ((View.whole main_v0).slice (win0_4.rect t)).set ↔ _
  rw [View.set_slice_whole, Rect.mem_set_unit]
  exact Iff.rfl

/-- Every index of the result array lies in the block of a writing point: row i is in block i / 1024, written
    at the point (i / 1024, 7). -/
theorem covered (i : S8192x16.Idx) :
    ∃ t : Fin cfg0.N, (cfg0.win 4).flush t = true ∧ i ∈ ((cfg0.win 4).blk t).view.set := by
  have hi0 : (i 0).val < 8192 := (i 0).isLt
  have hi1 : (i 1).val < 16 := (i 1).isLt
  have hN : cfg0.N = 64 := N_0
  refine ⟨⟨(i 0).val / 1024 * 8 + 7, by omega⟩, (flush0_4 _).mpr (by show ((i 0).val / 1024 * 8 + 7) % 8 = 7; omega), ?_⟩
  rw [mem_blk4]
  obtain ⟨-, -, -, -, -, -, -, -, e0, e1⟩ := idx_facts ⟨(i 0).val / 1024 * 8 + 7, by omega⟩
  intro a
  match a with
  | ⟨0, _⟩ =>
    show win0_4.index _ (0 : Fin 2) * 1024 ≤ (i 0).val ∧ (i 0).val < win0_4.index _ (0 : Fin 2) * 1024 + 1024
    rw [e0]; show ((i 0).val / 1024 * 8 + 7) / 8 * 1024 ≤ (i 0).val ∧ (i 0).val < ((i 0).val / 1024 * 8 + 7) / 8 * 1024 + 1024
    omega
  | ⟨1, _⟩ =>
    show win0_4.index _ (1 : Fin 2) * 16 ≤ (i 1).val ∧ (i 1).val < win0_4.index _ (1 : Fin 2) * 16 + 16
    rw [e1]; omega

/-- THE RESULT ARRAY after the run is the filter of the argument arrays as the region finds them. -/
theorem result_eq (c : Dev nD) :
    (dats m 0 c).arrAt 4 cfg0.N = Cert.Filter.G (V m c main_arg0) (V m c main_arg1) :=
  (dats m 0 c).arrAt_eq_of_cover 4 _ (fun t hf => flushed_eq m c t hf) (covered)

/-- The run of the idealized kernel, read: the result array ends at the filter of the launch contents of the
    two arguments, which end as they were. -/
theorem run_filter (ρ : Dev nD → PrngReg) :
    θ_run defs (onTc (τ := τ) (main (F := Ideal))) ⟨m, fun _ => 0, ρ⟩ (fun r => ∀ c : Dev nD,
      r.2.mem ((c.tc : Thread nD τ).loc main_v0)
        = Cert.Filter.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (run_out m ρ)

end Cert.KernelIdeal.Tiled

end
-- ==== Proof.RefValue.lean ====
/-
  The reference's result, read one operation at a time, is the filter `Cert.Filter.G` of the two arguments.

  The reference forms, from the feature rows r_i (argument 1) and the value rows U_i (argument 0):
    * the squared lengths |r_i|^2, as the zero word plus the sum over the 5 features of r_i[d] * r_i[d];
    * the 8192 x 8192 table |r_i|^2 + |r_j|^2 (a column copy plus a row copy of the squared lengths);
    * the Gram table <r_i, r_j>, a contraction of the features with their transpose over the 5 features;
    * the weights exp(-1/2 * max(|r_i|^2 + |r_j|^2 - 2 <r_i, r_j>, 0)), entry by entry;
    * the result sum_j w(i, j) * U[j, c] - U[i, c], a contraction over the 8192 rows and a subtraction.
  Entry (i, j) of every 8192 x 8192 table depends on rows i and j of the features only, and entry (i, c) of the
  result on row i of the features, all the feature rows, and column c of the values. The only law used besides
  reading each operation at an index is 0 + x = x for the zero word the squared length's sum starts from.
-/
import proofs.«139288_j19018115186783_1_alg».proof.Proof.Gen.ReferenceIdeal.Read
import proofs.«139288_j19018115186783_1_alg».proof.Proof.Filter
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx

/-- The squared length of feature row `p`: the reference's sum over the 5 features starts from the zero word,
    and 0 + x = x. Entry `p` reads row `p` of the features only. -/
theorem sqLen_at (x1 : (⟨S8192x5, .f32⟩ : BufTy).Contents (Elt Ideal)) (p : Fin 8192) :
    val_main_v1 (F := Ideal) x1 (ix1 p) = Cert.Filter.sqLen (Cert.Filter.row x1 p) := by
  rw [val_main_v1_apply, val_main_cst_apply, Ideal.ofBits_def, Ideal.ofBits_zero_f32, zero_add]
  unfold Cert.Filter.sqLen
  refine Finset.sum_congr rfl fun k _ => ?_
  -- the summand at feature k is the square of entry (p, k)
  have e : idx_main_v1 (ix1 p) k = ix2 p k :=
    funext fun a => Fin.ext (by match a with | ⟨0, _⟩ => rfl | ⟨1, _⟩ => rfl)
  rw [val_main_v0_apply, Ideal.mulf_def, e]

/-- The weight table at (p, j) is the Gaussian weight of feature rows p and j: the column copy of the squared
    lengths reads row p, the row copy reads row j, and the Gram entry is the sum over the 5 features of
    r_p[d] * r_j[d] (the transposed operand at (d, j) is the feature entry (j, d)). -/
theorem weight_at (x1 : (⟨S8192x5, .f32⟩ : BufTy).Contents (Elt Ideal)) (p j : Fin 8192) :
    val_main_v16 (F := Ideal) x1 (ix2 p j) = Cert.Filter.weight (Cert.Filter.row x1 p) (Cert.Filter.row x1 j) := by
  -- the column copy of the squared lengths at (p, j) reads squared length p; the row copy reads squared length j
  have e4 : idx_main_v2 (idx_main_v4 (ix2 p j)) = ix1 p :=
    funext fun a => Fin.ext (by match a with | ⟨0, _⟩ => rfl)
  have e5 : idx_main_v3 (idx_main_v5 (ix2 p j)) = ix1 j :=
    funext fun a => Fin.ext (by match a with | ⟨0, _⟩ => rfl)
  -- the Gram entry's summand at feature d reads feature entries (p, d) and (j, d)
  have el : ∀ d : Fin 5, lidx_main_v8 (ix2 p j) d = ix2 p d := fun d =>
    funext fun a => Fin.ext (by match a with | ⟨0, _⟩ => rfl | ⟨1, _⟩ => rfl)
  have er : ∀ d : Fin 5, idx_main_v7 (ridx_main_v8 (ix2 p j) d) = ix2 j d := fun d =>
    funext fun a => Fin.ext (by match a with | ⟨0, _⟩ => rfl | ⟨1, _⟩ => rfl)
  rw [val_main_v16_apply, val_main_v15_apply, val_main_v14_apply, val_main_cst_2_apply, val_main_v13_apply,
    val_main_v12_apply, val_main_cst_1_apply, val_main_v11_apply, val_main_v10_apply, val_main_v9_apply,
    val_main_cst_0_apply, val_main_v8_apply, val_main_v6_apply, val_main_v5_apply, val_main_v4_apply,
    val_main_v3_apply, val_main_v2_apply, e4, e5, sqLen_at, sqLen_at]
  simp only [val_main_v7_apply, el, er, Ideal.hostUnary_exp_def, Ideal.mulf_def, Ideal.subf_def, Ideal.addf_def,
    Ideal.maximumf_def, Ideal.ofBits_def]
  rfl

/-- The reference's result is the filter: entry (p, q) is the sum over all rows j of the weight of feature rows
    p and j times the value entry (j, q), minus the value entry (p, q). -/
theorem ref_is_filter (x0 : (⟨S8192x16, .f32⟩ : BufTy).Contents (Elt Ideal))
    (x1 : (⟨S8192x5, .f32⟩ : BufTy).Contents (Elt Ideal)) :
    val_main_v18 (F := Ideal) x0 x1 = Cert.Filter.G x0 x1 := by
  funext i
  obtain ⟨p, q, rfl⟩ : ∃ (p : Fin 8192) (q : Fin 16), i = ix2 p q := ⟨i 0, i 1, eq_ix2 i⟩
  rw [val_main_v18_apply, val_main_v17_apply, Ideal.subf_def]
  unfold Cert.Filter.G
  refine congrArg (· - x0 (ix2 p q)) (Finset.sum_congr rfl fun j _ => ?_)
  -- the contraction's summand at row j reads weight (p, j) and value entry (j, q)
  have el : lidx_main_v17 (ix2 p q) j = ix2 p j :=
    funext fun a => Fin.ext (by match a with | ⟨0, _⟩ => rfl | ⟨1, _⟩ => rfl)
  have er : ridx_main_v17 (ix2 p q) j = ix2 j q :=
    funext fun a => Fin.ext (by match a with | ⟨0, _⟩ => rfl | ⟨1, _⟩ => rfl)
  rw [el, er, weight_at]

end Cert.ReferenceIdeal.RefValue

end
-- ==== Proof.lean ====
/-
  The certificate of a tiled Gaussian filter against its one-pass reference.

  For feature rows r_i in R^5 and value rows U_i in R^16, i < 8192, both programs compute
      out_i = sum_j exp(-1/2 max(|r_i|^2 + |r_j|^2 - 2 <r_i, r_j>, 0)) U_j - U_i.
  The reference forms the whole 8192 x 8192 table of weights and contracts it with U. The kernel walks an
  8 x 8 grid of (block of 1024 output rows, block of 1024 summed rows): at each point it forms the 1024 x 1024
  tile of weights from the two blocks of features, adds the tile's product with the block of values to a
  running sum kept in a scratch buffer (cleared at the first tile of each output block), and after the eighth
  tile writes the block of results, the running sum less the rows' own values.

  The frames: the body's three control cases (first tile, middle tiles, last tile) are run once each on
  symbolic buffers; the proof data carries the running sum from point to point; each argument array is read
  through two windows, so its share is halved between them at the launch; an input window's array is never
  written. This is done once for every float instance and read at the word-level instance for the printed
  kernel and at the ideal instance for its idealization, which differ in no operation (the idealization
  rewrote nothing, so that conjunct is trivial).

  The values, over the extended reals: the reference's result, read operation by operation, and the kernel's
  result array, read off its run block by block, are the same function `Cert.Filter.G` of the arguments. The
  one law between them is that a sum over 8192 rows is the sum over 8 tiles of the sums over each tile's 1024
  rows, the running sum starting from zero: only commutativity and associativity of addition, so the
  precondition (finite inputs) is never opened.
-/
import proofs.«139288_j19018115186783_1_alg».proof.Defs
import proofs.«139288_j19018115186783_1_alg».proof.Proof.Gen.Kernel
import proofs.«139288_j19018115186783_1_alg».proof.Proof.Gen.KernelIdeal
import proofs.«139288_j19018115186783_1_alg».proof.Proof.Gen.ReferenceIdeal
import proofs.«139288_j19018115186783_1_alg».proof.Proof.Gen.Pre_finite_inputs
import proofs.«139288_j19018115186783_1_alg».proof.Proof.BitsRun.Launch
import proofs.«139288_j19018115186783_1_alg».proof.Proof.IdealRun.Launch
import proofs.«139288_j19018115186783_1_alg».proof.Proof.KernelValue
import proofs.«139288_j19018115186783_1_alg».proof.Proof.RefValue
import Idealize.ShloMosaic.Adequacy
import Idealize.ShloMosaic.Init

noncomputable section

namespace Cert.Proof

open Idealize.ShloMosaic Idealize.SL.Sem

/-- The printed kernel runs to the end, faults nowhere and leaves its two arguments as they were. -/
theorem frame_kernel : Cert.frame_Kernel := fun m ρ _ => Cert.Kernel.Tiled.frame (F := Bits) m ρ

/-- So does its idealization. -/
theorem frame_kernelIdeal : Cert.frame_KernelIdeal := fun m ρ _ => Cert.KernelIdeal.Tiled.frame (F := Ideal) m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Run from memories that agree on the arguments, both programs end with the filter of the arguments in
    their result arrays. -/
theorem algebraic : Cert.algebraic_KernelIdeal_ReferenceIdeal := by
  intro m ρ m' ρ' _ hagree
  refine ⟨_, Cert.KernelIdeal.Tiled.run_filter m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v18_eq _ _).trans (Cert.ReferenceIdeal.RefValue.ref_is_filter _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
